-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x2048x4096 .f32) (main_arg1 : FVec F S4096x4096 .f32) (main_arg2 : FVec F S1 .f32) (main_arg3 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S1 : Shape := ⟨1, ![1]⟩
abbrev S8192x4096 : Shape := ⟨2, ![8192, 4096]⟩
abbrev S_ : Shape := ⟨0, ![]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 13
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1, .f32⟩
  | .hbm, ⟨3, _⟩ => ⟨S4096x4096, .i32⟩
  | .hbm, ⟨4, _⟩ => ⟨S8192x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .f32⟩
  | .local _ .vmem, ⟨5, _⟩ => ⟨S2048x2048, .f32⟩
  | .local _ .vmem, ⟨6, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  shapeCasts_S1_S_ : S1.ShapeCasts S_
  bcast_S_S4096x4096 : S_.BroadcastsInDim S4096x4096 (![] : Fin 0 → Fin S4096x4096.rank)
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S8192x4096_S4x2048x4096 : S8192x4096.ShapeCasts S4x2048x4096
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .bf16 = 32 ∨ (Rect.block (s := S4096x4096) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x4096.size a
  hwx0_2 : ∀ i : grid0.Coords, EltTy.bits .f32 = 32 ∨ (Rect.block (s := S8192x4096) S2048x2048.size (cc0_transform_2 i) (hinb0_2 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1, .f32⟩
  | .hbm, ⟨3, _⟩ => ⟨S4096x4096, .i32⟩
  | .hbm, ⟨4, _⟩ => ⟨S4096x4096, .f32⟩
  | .hbm, ⟨5, _⟩ => ⟨S_, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  shapeCasts_S1_S_ : S1.ShapeCasts S_
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Pieces.lean ====
/-
  What one grid point's body leaves behind, as values.

  The body keeps a running block `acc` in a scratch buffer that survives from one grid point to the next. At a
  point it (i) overwrites `acc` by the zero block when the contraction coordinate is 0, (ii) replaces `acc` by
  `acc + x_blk · w_blk` (one store of the whole block, its payload a function of the three whole buffers it
  loads), and (iii) when the contraction coordinate is the last one, copies `acc` into the output block. So in
  every control case the scratch ends at that one payload — over the zero block in the first case, over what
  the previous point left in the other two — and in the last case the output block ends at the same value.
-/
import proofs.«130440_j54400055771143_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First contraction step of an output block: the scratch is reset to the zero block and then updated, so it ends
    at the update's payload over the zero block. -/
theorem scratch_first (c : Dev nD) (i : grid0.Coords) (arg3 : Memref sig .tc .vmem S2048x256 .f32) (harg3 : arg3.IsWhole) (arg4 : Memref sig .tc .vmem S256x2048 .bf16) (harg4 : arg4.IsWhole) (arg5 : Memref sig .tc .vmem S2048x2048 .f32) (harg5 : arg5.IsWhole) (arg6 : Memref sig .tc .vmem S2048x2048 .f32) (harg6 : arg6.IsWhole) (hc0 : cond0_0 i) (hc1 : ¬cond0_1 i)
    (x0 : Vec F S2048x256 .f32) (x1 : Vec F S256x2048 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x2048) hz, View.readCov_unit_zero (S := S2048x2048) _ hz]
  simp only [View.readAt_eq_ld, harg3.read_unread, harg4.read_unread, harg6.read_unread, View.ld_unit_zero (S := S2048x2048) hz, View.ld_unit_zero (S := S2048x256) hz, View.ld_unit_zero (S := S256x2048) hz]

/-- A middle contraction step: the scratch ends at the update's payload over what the previous point left. -/
theorem scratch_middle (c : Dev nD) (i : grid0.Coords) (arg3 : Memref sig .tc .vmem S2048x256 .f32) (harg3 : arg3.IsWhole) (arg4 : Memref sig .tc .vmem S256x2048 .bf16) (harg4 : arg4.IsWhole) (arg5 : Memref sig .tc .vmem S2048x2048 .f32) (harg5 : arg5.IsWhole) (arg6 : Memref sig .tc .vmem S2048x2048 .f32) (harg6 : arg6.IsWhole) (hc0 : ¬cond0_0 i) (hc1 : ¬cond0_1 i)
    (x0 : Vec F S2048x256 .f32) (x1 : Vec F S256x2048 .bf16) (xs0 : Vec F S2048x2048 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S2048x2048) hz, View.ld_unit_zero (S := S2048x256) hz, View.ld_unit_zero (S := S256x2048) hz]

/-- The last contraction step: the scratch again ends at the update's payload over what the previous point left, -/
theorem scratch_last (c : Dev nD) (i : grid0.Coords) (arg3 : Memref sig .tc .vmem S2048x256 .f32) (harg3 : arg3.IsWhole) (arg4 : Memref sig .tc .vmem S256x2048 .bf16) (harg4 : arg4.IsWhole) (arg5 : Memref sig .tc .vmem S2048x2048 .f32) (harg5 : arg5.IsWhole) (arg6 : Memref sig .tc .vmem S2048x2048 .f32) (harg6 : arg6.IsWhole) (hc0 : ¬cond0_0 i) (hc1 : cond0_1 i)
    (x0 : Vec F S2048x256 .f32) (x1 : Vec F S256x2048 .bf16) (xs0 : Vec F S2048x2048 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S2048x2048) hz, View.ld_unit_zero (S := S2048x256) hz, View.ld_unit_zero (S := S256x2048) hz]

/-- and the output block, a copy of the scratch read back after that update, ends at the same value. -/
theorem out_last (c : Dev nD) (i : grid0.Coords) (arg3 : Memref sig .tc .vmem S2048x256 .f32) (harg3 : arg3.IsWhole) (arg4 : Memref sig .tc .vmem S256x2048 .bf16) (harg4 : arg4.IsWhole) (arg5 : Memref sig .tc .vmem S2048x2048 .f32) (harg5 : arg5.IsWhole) (arg6 : Memref sig .tc .vmem S2048x2048 .f32) (harg6 : arg6.IsWhole) (hc0 : ¬cond0_0 i) (hc1 : cond0_1 i)
    (x0 : Vec F S2048x256 .f32) (x1 : Vec F S256x2048 .bf16) (xs0 : Vec F S2048x2048 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S2048x2048) _ hz]
  simp only [View.readAt_eq_ld, harg3.read_unread, harg4.read_unread, harg6.read_unread, View.ld_unit_zero (S := S2048x2048) hz, View.ld_unit_zero (S := S2048x256) hz, View.ld_unit_zero (S := S256x2048) hz]

end Cert.KernelIdeal.Acc

end
-- ==== Proof.Payload.lean ====
/-
  One update of the running block, read at an entry, over the extended reals.

  The update's payload is `acc + x_blk · w_blk`: the matrix unit contracts the 256 columns of the x block with
  the 256 rows of the weight block into a zero accumulator, and the result is added to `acc`. At the exact
  model the change of float format applied to the x block is the identity and the zero accumulator adds
  nothing, so entry (r, q) of the payload is `acc[r, q] + Σ_{kk < 256} x[r, kk] · w[kk, q]`. The reset block
  is zero everywhere.
-/
import proofs.«130440_j54400055771143_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Acc

open Cert.KernelIdeal Cert.KernelIdeal.Gen

/-- The reset block is zero at every entry. -/
theorem reset_apply (j : S2048x2048.Idx) : k0_pay1 (F := Ideal) j = 0 := by
  unfold k0_pay1
  rw [shapeCast_self]
  show Ideal.ofBits .f32 0x00000000#32 = 0
  exact Ideal.ofBits_zero_f32

/-- The left operand of the block product at result entry (r, q) and contraction position `k` is entry (r, k). -/
theorem lhs_entry (r q : Fin 2048) (k : Fin 256) :
    dot_S2048x256_S256x2048_S2048x2048_1_0_0_1_n_n.lhsIdx (ix2 r q)
      ((contrEquiv1 dot_S2048x256_S256x2048_S2048x2048_1_0_0_1_n_n 256 rfl rfl).symm k) = ix2 r k := by
  have hk := contrEquiv1_symm_val dot_S2048x256_S256x2048_S2048x2048_1_0_0_1_n_n 256 rfl rfl k
  refine funext fun a => Fin.ext ?_
  match a with
  | ⟨0, _⟩ =>
    show (dot_S2048x256_S256x2048_S2048x2048_1_0_0_1_n_n.lhsIdx (ix2 r q) _ 0).val = r.val
    unfold DotDims.lhsIdx
    rw [dif_neg (show ¬(0 : Fin S2048x256.rank) ∈ dot_S2048x256_S256x2048_S2048x2048_1_0_0_1_n_n.lhsBatch by decide),
      dif_pos (show (0 : Fin S2048x256.rank) ∈ dot_S2048x256_S256x2048_S2048x2048_1_0_0_1_n_n.lhsNonContracting by decide)]
    rfl
  | ⟨1, _⟩ =>
    exact (dot_S2048x256_S256x2048_S2048x2048_1_0_0_1_n_n.lhsIdx_val_of_single rfl (ix2 r q) _).trans hk

/-- The right operand there is entry (k, q). -/
theorem rhs_entry (r q : Fin 2048) (k : Fin 256) :
    dot_S2048x256_S256x2048_S2048x2048_1_0_0_1_n_n.rhsIdx (ix2 r q)
      ((contrEquiv1 dot_S2048x256_S256x2048_S2048x2048_1_0_0_1_n_n 256 rfl rfl).symm k) = ix2 k q := by
  have hk := contrEquiv1_symm_val dot_S2048x256_S256x2048_S2048x2048_1_0_0_1_n_n 256 rfl rfl k
  refine funext fun a => Fin.ext ?_
  match a with
  | ⟨0, _⟩ =>
    exact (dot_S2048x256_S256x2048_S2048x2048_1_0_0_1_n_n.rhsIdx_val_of_single rfl (ix2 r q) _).trans hk
  | ⟨1, _⟩ =>
    show (dot_S2048x256_S256x2048_S2048x2048_1_0_0_1_n_n.rhsIdx (ix2 r q) _ 1).val = q.val
    unfold DotDims.rhsIdx
    rw [dif_neg (show ¬(1 : Fin S256x2048.rank) ∈ dot_S2048x256_S256x2048_S2048x2048_1_0_0_1_n_n.rhsBatch by decide),
      dif_pos (show (1 : Fin S256x2048.rank) ∈ dot_S2048x256_S256x2048_S2048x2048_1_0_0_1_n_n.rhsNonContracting by decide)]
    rfl

/-- Entry (r, q) of the update: the old entry plus the 256-term contraction of row `r` of the x block with
    column `q` of the weight block. -/
theorem update_apply (acc : Vec Ideal S2048x2048 .f32) (x : Vec Ideal S2048x256 .f32) (w : Vec Ideal S256x2048 .bf16)
    (r q : Fin 2048) :
    k0_pay2 (F := Ideal) acc x w (ix2 r q) = acc (ix2 r q) + ∑ kk : Fin 256, x (ix2 r kk) * w (ix2 kk q) := by
  unfold k0_pay2
  rw [shapeCast_self, shapeCast_self, shapeCast_self]
  show acc (ix2 r q) + FloatOps.matmul dot_S2048x256_S256x2048_S2048x2048_1_0_0_1_n_n none
      (truncf (F := Ideal) .bf16 x bitsLt_bf16_f32) w (constant S2048x2048 .f32 0x00000000#32) (ix2 r q) = _
  rw [Ideal.matmul_constant_zero_apply,
    ← Equiv.sum_comp (contrEquiv1 dot_S2048x256_S256x2048_S2048x2048_1_0_0_1_n_n 256 rfl rfl).symm]
  refine congrArg (acc (ix2 r q) + ·) (Finset.sum_congr rfl fun k _ => ?_)
  rw [lhs_entry, rhs_entry]
  rfl

end Cert.KernelIdeal.Acc

end
-- ==== Proof.LibIsReal.lean ====
/-
  "This extended real is a real number", and what keeps it so.

  Distributing a product over a sum, cancelling, moving a factor across a sum: these laws of the reals fail
  at the infinities, so a proof that uses one first shows that the values involved are real.  The property
  is closed under sums, products, finite sums, maxima and minima, quotients by a nonzero real and the
  exponential; and the hyperbolic tangent of ANY extended real is real (it is -1 and 1 at the infinities),
  which is why a network whose layers end in tanh keeps finite values whatever it is fed.
-/
import Idealize.ShloMosaic.PureOps.Ideal
import Mathlib.Algebra.BigOperators.Fin

open Idealize.ShloMosaic

namespace Cert.Proof.LibIsReal

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- The hyperbolic tangent of any extended real is real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem IsReal.exp {x : EReal} (hx : IsReal x) : IsReal (Ideal.exp x) := by
  obtain ⟨a, rfl⟩ := hx
  exact ⟨Real.exp a, rfl⟩

/-- A quotient of a real by a nonzero real is real. -/
theorem IsReal.div {x : EReal} (hx : IsReal x) {d : ℝ} (hd : d ≠ 0) : IsReal (Ideal.div x (d : EReal)) := by
  rw [Ideal.div_coe hd]
  exact hx.mul (isReal_coe _)

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- … and conversely. -/
theorem isReal_of_ne {x : EReal} (ht : x ≠ ⊤) (hb : x ≠ ⊥) : IsReal x :=
  ⟨x.toReal, (EReal.coe_toReal ht hb).symm⟩

/-- A whole family of reals comes with its real-valued family (for stating a law over the reals). -/
theorem exists_real_family {ι : Type*} (f : ι → EReal) (h : ∀ i, IsReal (f i)) : ∃ g : ι → ℝ, ∀ i, f i = (g i : EReal) :=
  ⟨fun i => (h i).choose, fun i => (h i).choose_spec⟩

end Cert.Proof.LibIsReal
-- ==== Proof.Spec.lean ====
/-
  The arithmetic the two programs share, stated with no program in sight.

  Both compute, for every row `i` of the flattened input (8192 rows) and every output column `e`,
  a contraction over 4096 positions. The kernel walks a grid of 4 × 2 × 16 points, numbered row-major
  `n = (a·2 + b)·16 + j`; point `n` handles the 2048 rows `a·2048 + r`, the 2048 columns `b·2048 + q` and the 256
  contraction positions `j·256 + kk`, and adds that block's 256 products to a running value. After the point
  with last coordinate `j` the running value is the partial contraction over blocks `0 … j`; after `j = 15`
  it is the whole contraction, because every position `k < 4096` is `j·256 + kk` for exactly one pair.

  The reference contracts twice and combines: `Σ x·base + c · Σ x·m`; the kernel contracts once against the
  combined weight `base + c·m`. These agree when all values are real numbers (distributivity and moving a factor
  across a sum fail at the infinities).
-/
import proofs.«130440_j54400055771143_2_alg».proof.Proof.LibIsReal
import Idealize.ShloMosaic.Lib.ValueIdx

noncomputable section

namespace Cert.Spec

open Idealize.ShloMosaic Idealize.ShloMosaic.ValueIdx Cert.Proof.LibIsReal

/-- Row `a·2048 + r` of the flattened input, at grid point `n` (`a = n / 32`). -/
def rowOf (n : ℕ) (r : Fin 2048) : Fin 8192 := ⟨(n / 32 % 4) * 2048 + r.val, by have := r.isLt; omega⟩
/-- Column `b·2048 + q` of the output, at grid point `n` (`b = n / 16 mod 2`). -/
def colOf (n : ℕ) (q : Fin 2048) : Fin 4096 := ⟨(n / 16 % 2) * 2048 + q.val, by have := q.isLt; omega⟩
/-- Contraction position `j·256 + kk` of block `j` (taken mod 16, so that a grid point's number may be passed). -/
def kOf (j : ℕ) (kk : Fin 256) : Fin 4096 := ⟨(j % 16) * 256 + kk.val, by have := kk.isLt; omega⟩

theorem kOf_mod (n : ℕ) (kk : Fin 256) : kOf (n % 16) kk = kOf n kk := Fin.ext (by simp [kOf])

/-- Within a run of points sharing an output block the row and column blocks do not move. -/
theorem rowOf_succ (n : ℕ) (h : (n + 1) % 16 ≠ 0) (r : Fin 2048) : rowOf (n + 1) r = rowOf n r :=
  Fin.ext (by simp only [rowOf]; omega)
theorem colOf_succ (n : ℕ) (h : (n + 1) % 16 ≠ 0) (q : Fin 2048) : colOf (n + 1) q = colOf n q :=
  Fin.ext (by simp only [colOf]; omega)

/-- The contraction of row `i` of `X` with column `e` of `W` over blocks `0 … j`. -/
def partialDot (X : (⟨2, ![8192, 4096]⟩ : Shape).Idx → EReal) (W : (⟨2, ![4096, 4096]⟩ : Shape).Idx → EReal)
    (i : Fin 8192) (e : Fin 4096) (j : ℕ) : EReal :=
  ∑ jb ∈ Finset.range (j + 1), ∑ kk : Fin 256, X (ix2 i (kOf jb kk)) * W (ix2 (kOf jb kk) e)

theorem partialDot_zero (X W) (i : Fin 8192) (e : Fin 4096) :
    partialDot X W i e 0 = ∑ kk : Fin 256, X (ix2 i (kOf 0 kk)) * W (ix2 (kOf 0 kk) e) := by
  unfold partialDot; rw [Finset.sum_range_one]

theorem partialDot_succ (X W) (i : Fin 8192) (e : Fin 4096) (j : ℕ) :
    partialDot X W i e (j + 1)
      = partialDot X W i e j + ∑ kk : Fin 256, X (ix2 i (kOf (j + 1) kk)) * W (ix2 (kOf (j + 1) kk) e) := by
  unfold partialDot; rw [Finset.sum_range_succ]

/-- Position `k < 4096` is `j·256 + kk` for exactly one block `j < 16` and offset `kk < 256`. -/
def blockEquiv : Fin 16 × Fin 256 ≃ Fin 4096 where
  toFun p := ⟨p.1.val * 256 + p.2.val, by have := p.1.isLt; have := p.2.isLt; omega⟩
  invFun k := (⟨k.val / 256, by have := k.isLt; omega⟩, ⟨k.val % 256, by omega⟩)
  left_inv p := by
    have h1 := p.1.isLt; have h2 := p.2.isLt
    refine Prod.ext (Fin.ext ?_) (Fin.ext ?_)
    · show (p.1.val * 256 + p.2.val) / 256 = p.1.val; omega
    · show (p.1.val * 256 + p.2.val) % 256 = p.2.val; omega
  right_inv k := Fin.ext (by show k.val / 256 * 256 + k.val % 256 = k.val; omega)

/-- A sum over blocks and offsets is the sum over all positions. -/
theorem sum_blocks {M : Type} [AddCommMonoid M] (g : Fin 4096 → M) :
    ∑ jb ∈ Finset.range 16, ∑ kk : Fin 256, g (kOf jb kk) = ∑ k : Fin 4096, g k := by
  rw [Finset.sum_range, ← Equiv.sum_comp blockEquiv g, Fintype.sum_prod_type]
  refine Finset.sum_congr rfl fun jb _ => Finset.sum_congr rfl fun kk _ => congrArg g (Fin.ext ?_)
  show (jb.val % 16) * 256 + kk.val = jb.val * 256 + kk.val
  rw [Nat.mod_eq_of_lt jb.isLt]

/-- After the last block the partial contraction is the whole one. -/
theorem partialDot_full (X W) (i : Fin 8192) (e : Fin 4096) :
    partialDot X W i e 15 = ∑ k : Fin 4096, X (ix2 i k) * W (ix2 k e) :=
  sum_blocks fun k => X (ix2 i k) * W (ix2 k e)

/-- The coercion of a finite sum of reals is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Over real numbers, one contraction against the combined weight `b + c·m` is the two contractions combined. -/
theorem dot_combined {ι : Type*} [Fintype ι] (x b mk : ι → EReal) (cc : EReal)
    (hx : ∀ k, IsReal (x k)) (hb : ∀ k, IsReal (b k)) (hm : ∀ k, IsReal (mk k)) (hc : IsReal cc) :
    ∑ k, x k * (b k + cc * mk k) = ∑ k, x k * b k + cc * ∑ k, x k * mk k := by
  obtain ⟨xr, hxr⟩ := exists_real_family x hx
  obtain ⟨br, hbr⟩ := exists_real_family b hb
  obtain ⟨mr, hmr⟩ := exists_real_family mk hm
  obtain ⟨cr, rfl⟩ := hc
  simp only [hxr, hbr, hmr, ← EReal.coe_mul, ← EReal.coe_add, ← coe_sum]
  refine congrArg _ ?_
  rw [Finset.mul_sum, ← Finset.sum_add_distrib]
  exact Finset.sum_congr rfl fun k _ => by ring

end Cert.Spec

end
-- ==== Proof.Blocks.lean ====
/-
  The input blocks a grid point sees, read at an entry.

  Point `n = (a·2 + b)·16 + j` is handed rows `a·2048 …` and columns `j·256 …` of the flattened input, and rows
  `j·256 …` and columns `b·2048 …` of the combined weight; the output block it belongs to is (a, b). A block's
  coordinate is always (block index) × (block extent) + (coordinate inside the block), and the block indices
  are these functions of the point's number — decided once over the 128 points.
-/
import proofs.«130440_j54400055771143_2_alg».proof.Proof.Gen.KernelIdeal.Frame
import proofs.«130440_j54400055771143_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx Cert.Spec

namespace Cert.KernelIdeal.Acc

open Cert.KernelIdeal Cert.KernelIdeal.Gen

variable {F : FTy → Type} [FloatOps F]
variable (m : (ℓ : Loc nD τ sig) → Buf (Elt F) ℓ)

/-- The block indices of the three windows at point `t`. -/
theorem block_index : ∀ t : Fin cfg0.N,
    win0_0.index t 0 = t.val / 32 % 4 ∧ win0_0.index t 1 = t.val % 16 ∧
    win0_1.index t 0 = t.val % 16 ∧ win0_1.index t 1 = t.val / 16 % 2 ∧
    win0_2.index t 0 = t.val / 32 % 4 ∧ win0_2.index t 1 = t.val / 16 % 2 :=
  (by decide +kernel : ∀ t : Fin grid0.N,
    win0_0.index t 0 = t.val / 32 % 4 ∧ win0_0.index t 1 = t.val % 16 ∧
    win0_1.index t 0 = t.val % 16 ∧ win0_1.index t 1 = t.val / 16 % 2 ∧
    win0_2.index t 0 = t.val / 32 % 4 ∧ win0_2.index t 1 = t.val / 16 % 2)

/-- Entry (r, kk) of the x block at point `t` is entry (a·2048 + r, j·256 + kk) of the flattened input. -/
theorem xblock_apply (c : Dev nD) (t : Fin cfg0.N) (r : Fin 2048) (kk : Fin 256) :
    (iblk m c 0 t : Vec F S2048x256 .f32) (ix2 r kk) = V m c main_v0 (ix2 (rowOf t.val r) (kOf t.val kk)) := by
  unfold iblk
  rw [View.read_apply]
  show V m c main_v0 _ = V m c main_v0 _
  refine congrArg (V m c main_v0) (funext fun a => Fin.ext ?_)
  match a with
  | ⟨0, _⟩ =>
    show win0_0.index t 0 * 2048 + 1 * r.val = (t.val / 32 % 4) * 2048 + r.val
    rw [(block_index t).1]; omega
  | ⟨1, _⟩ =>
    show win0_0.index t 1 * 256 + 1 * kk.val = (t.val % 16) * 256 + kk.val
    rw [(block_index t).2.1]; omega

/-- Entry (kk, q) of the weight block at point `t` is entry (j·256 + kk, b·2048 + q) of the combined weight. -/
theorem wblock_apply (c : Dev nD) (t : Fin cfg0.N) (kk : Fin 256) (q : Fin 2048) :
    (iblk m c 1 t : Vec F S256x2048 .bf16) (ix2 kk q) = V m c main_v6 (ix2 (kOf t.val kk) (colOf t.val q)) := by
  unfold iblk
  rw [View.read_apply]
  show V m c main_v6 _ = V m c main_v6 _
  refine congrArg (V m c main_v6) (funext fun a => Fin.ext ?_)
  match a with
  | ⟨0, _⟩ =>
    show win0_1.index t 0 * 256 + 1 * kk.val = (t.val % 16) * 256 + kk.val
    rw [(block_index t).2.2.1]; omega
  | ⟨1, _⟩ =>
    show win0_1.index t 1 * 2048 + 1 * q.val = (t.val / 16 % 2) * 2048 + q.val
    rw [(block_index t).2.2.2.1]; omega

end Cert.KernelIdeal.Acc

end
-- ==== Proof.Accum.lean ====
/-
  The running block after every grid point.

  Number the points `n = (a·2 + b)·16 + j`. By induction on `n`: after point `n` entry (r, q) of the running block is
  the contraction of row `a·2048 + r` of the flattened input with column `b·2048 + q` of the combined weight over
  the blocks `0 … j`. At `j = 0` the block is reset and the first 256 products are added to zero; at `j > 0` the
  row and column blocks are those of the point before, and the next 256 products are added to what it left.
  At `j = 15` the output block receives the same value, now the whole contraction.
-/
import proofs.«130440_j54400055771143_2_alg».proof.Proof.Pieces
import proofs.«130440_j54400055771143_2_alg».proof.Proof.Payload
import proofs.«130440_j54400055771143_2_alg».proof.Proof.Blocks

set_option maxRecDepth 16384

noncomputable section

open Idealize.ShloMosaic Idealize.ShloMosaic.TcCoe Idealize.SL.Sem
open Idealize.ShloMosaic.ValueIdx Cert.Spec

namespace Cert.KernelIdeal.Acc

open Cert.KernelIdeal Cert.KernelIdeal.Gen

/-- One step over the reset block: the entries of the two blocks being what they are, the result is the first
    block's 256 products. -/
theorem first_step (x : Vec Ideal S2048x256 .f32) (w : Vec Ideal S256x2048 .bf16)
    (X : S8192x4096.Idx → EReal) (W : S4096x4096.Idx → EReal) (i : Fin 8192) (e : Fin 4096) (j : ℕ) (r q : Fin 2048)
    (hx : ∀ kk, x (ix2 r kk) = X (ix2 i (kOf j kk))) (hw : ∀ kk, w (ix2 kk q) = W (ix2 (kOf j kk) e)) :
    k0_pay2 (F := Ideal) (k0_pay1 (F := Ideal)) x w (ix2 r q) = ∑ kk : Fin 256, X (ix2 i (kOf j kk)) * W (ix2 (kOf j kk) e) := by
  rw [update_apply, reset_apply, zero_add]
  exact Finset.sum_congr rfl fun kk _ => by rw [hx kk, hw kk]

/-- One step over a previous value `P`: the result is `P` plus the block's 256 products. -/
theorem next_step (prev : Vec Ideal S2048x2048 .f32) (x : Vec Ideal S2048x256 .f32) (w : Vec Ideal S256x2048 .bf16)
    (X : S8192x4096.Idx → EReal) (W : S4096x4096.Idx → EReal) (i : Fin 8192) (e : Fin 4096) (j : ℕ) (r q : Fin 2048) (P : EReal)
    (hp : prev (ix2 r q) = P)
    (hx : ∀ kk, x (ix2 r kk) = X (ix2 i (kOf j kk))) (hw : ∀ kk, w (ix2 kk q) = W (ix2 (kOf j kk) e)) :
    k0_pay2 (F := Ideal) prev x w (ix2 r q) = P + ∑ kk : Fin 256, X (ix2 i (kOf j kk)) * W (ix2 (kOf j kk) e) := by
  rw [update_apply, hp]
  exact congrArg (P + ·) (Finset.sum_congr rfl fun kk _ => by rw [hx kk, hw kk])

variable (m : (ℓ : Loc nD τ sig) → Buf (Elt Ideal) ℓ)

/-- The flattened input and the combined weight, as the region finds them. -/
abbrev Xin (c : Dev nD) : S8192x4096.Idx → EReal := V m c main_v0
abbrev Win (c : Dev nD) : S4096x4096.Idx → EReal := V m c main_v6

/-- After point `n` the running block holds the partial contraction over blocks `0 … n mod 16`. -/
theorem running_eq (c : Dev nD) : ∀ (n : ℕ) (hn : n < cfg0.N) (r q : Fin 2048),
    (outsAt0 m c n hn).2 (ix2 r q) = partialDot (Xin m c) (Win m c) (rowOf n r) (colOf n q) (n % 16)
  | 0, hn, r, q => by
    rw [outsAt0_A m c ⟨0, hn⟩ rfl (by show ¬0 % 16 = 15; omega)]
    dsimp only
    refine (congrFun (scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (iblk m c 0 ⟨0, hn⟩) (iblk m c 1 ⟨0, hn⟩)) (ix2 r q)).trans ?_
    rw [Nat.zero_mod, partialDot_zero]
    exact first_step (iblk m c 0 ⟨0, hn⟩) (iblk m c 1 ⟨0, hn⟩) (Xin m c) (Win m c) (rowOf 0 r) (colOf 0 q) 0 r q
      (fun kk => xblock_apply m c ⟨0, hn⟩ r kk) (fun kk => wblock_apply m c ⟨0, hn⟩ kk q)
  | n + 1, hn, r, q => by
    have hN : n + 1 < 128 := lt_of_lt_of_eq hn (show cfg0.N = 128 from N_0)
    by_cases h0 : (n + 1) % 16 = 0
    · have h1 : ¬(n + 1) % 16 = 15 := by omega
      rw [outsAt0_A m c ⟨n + 1, hn⟩ h0 h1]
      dsimp only
      refine (congrFun (scratch_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)) (ix2 r q)).trans ?_
      rw [h0, partialDot_zero]
      refine (first_step (iblk m c 0 ⟨n + 1, hn⟩) (iblk m c 1 ⟨n + 1, hn⟩) (Xin m c) (Win m c) (rowOf (n + 1) r) (colOf (n + 1) q) (n + 1) r q
        (fun kk => xblock_apply m c ⟨n + 1, hn⟩ r kk) (fun kk => wblock_apply m c ⟨n + 1, hn⟩ kk q)).trans ?_
      refine Finset.sum_congr rfl fun kk _ => ?_
      rw [← kOf_mod (n + 1) kk, h0]
    · have ih := running_eq c n (Nat.lt_of_succ_lt hn) r q
      have hj : (n + 1) % 16 = n % 16 + 1 := by omega
      have hk : ∀ kk, kOf (n % 16 + 1) kk = kOf (n + 1) kk := fun kk => by rw [← hj, kOf_mod]
      rw [hj, partialDot_succ, rowOf_succ n h0, colOf_succ n h0, ← ih]
      simp only [hk]
      by_cases h1 : (n + 1) % 16 = 15
      · rw [outsAt0_C m c ⟨n + 1, hn⟩ h0 h1]
        dsimp only
        refine (congrFun (scratch_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) (outsAt0 m c n (Nat.lt_of_succ_lt hn)).2) (ix2 r q)).trans ?_
        refine (next_step (outsAt0 m c n (Nat.lt_of_succ_lt hn)).2 (iblk m c 0 ⟨n + 1, hn⟩) (iblk m c 1 ⟨n + 1, hn⟩) (Xin m c) (Win m c) (rowOf (n + 1) r) (colOf (n + 1) q) (n + 1) r q _ rfl
          (fun kk => xblock_apply m c ⟨n + 1, hn⟩ r kk) (fun kk => wblock_apply m c ⟨n + 1, hn⟩ kk q)).trans ?_
        rw [rowOf_succ n h0, colOf_succ n h0]
      · rw [outsAt0_B m c ⟨n + 1, hn⟩ h0 h1]
        dsimp only
        refine (congrFun (scratch_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) (outsAt0 m c n (Nat.lt_of_succ_lt hn)).2) (ix2 r q)).trans ?_
        refine (next_step (outsAt0 m c n (Nat.lt_of_succ_lt hn)).2 (iblk m c 0 ⟨n + 1, hn⟩) (iblk m c 1 ⟨n + 1, hn⟩) (Xin m c) (Win m c) (rowOf (n + 1) r) (colOf (n + 1) q) (n + 1) r q _ rfl
          (fun kk => xblock_apply m c ⟨n + 1, hn⟩ r kk) (fun kk => wblock_apply m c ⟨n + 1, hn⟩ kk q)).trans ?_
        rw [rowOf_succ n h0, colOf_succ n h0]

/-- At the last contraction step the output block receives the running block: the whole contraction. -/
theorem output_eq (c : Dev nD) (t : Fin cfg0.N) (h1 : t.val % 16 = 15) (r q : Fin 2048) :
    (outsAt0 m c t.val t.isLt).1 (ix2 r q)
      = ∑ k : Fin 4096, Xin m c (ix2 (rowOf t.val r) k) * Win m c (ix2 k (colOf t.val q)) := by
  have h0 : ¬t.val % 16 = 0 := by omega
  have e1 : (outsAt0 m c t.val t.isLt).1 = (outsAt0 m c t.val t.isLt).2 := by
    rw [outsAt0_C m c t h0 h1]
    dsimp only
    exact (out_last c (grid0.coords t) (ms0_0 t) (hs0_0 t) (ms0_1 t) (hs0_1 t) (ms0_2 t) (hs0_2 t) scM0_0 (Memref.isWhole_whole _) _ _ (iblk m c 0 t) (iblk m c 1 t) _).trans
      (scratch_last c (grid0.coords t) (ms0_0 t) (hs0_0 t) (ms0_1 t) (hs0_1 t) (ms0_2 t) (hs0_2 t) scM0_0 (Memref.isWhole_whole _) _ _ (iblk m c 0 t) (iblk m c 1 t) _).symm
  rw [e1, running_eq m c t.val t.isLt r q, h1]
  exact partialDot_full _ _ _ _

end Cert.KernelIdeal.Acc

end
-- ==== Proof.Whole.lean ====
/-
  From output blocks to the whole product.

  The output block (a, b) is written back once, after its last contraction step, and then holds the whole
  contraction of rows `a·2048 …` of the flattened input with columns `b·2048 …` of the combined weight: that is the
  block (a, b) of the one [8192, 4096] array `X · W`. The eight blocks tile the array — entry (i, e) lies in block
  (i / 2048, e / 2048), written back at the point numbered `((i / 2048)·2 + e / 2048)·16 + 15` — so after the grid
  the output array is `X · W`.
-/
import proofs.«130440_j54400055771143_2_alg».proof.Proof.Accum

set_option maxRecDepth 16384

noncomputable section

open Idealize.ShloMosaic Idealize.ShloMosaic.TcCoe Idealize.SL.Sem
open Idealize.ShloMosaic.ValueIdx Cert.Spec
open Idealize.ShloMosaic.Pipeline (Dat)

namespace Cert.KernelIdeal.Acc

open Cert.KernelIdeal Cert.KernelIdeal.Gen

variable (m : (ℓ : Loc nD τ sig) → Buf (Elt Ideal) ℓ)

/-- The product of the flattened input with the combined weight, entry by entry. -/
def product (X : S8192x4096.Idx → EReal) (W : S4096x4096.Idx → EReal) : S8192x4096.Idx → EReal :=
  fun i => ∑ k : Fin 4096, X (ix2 (i 0) k) * W (ix2 k (i 1))

/-- Entry (r, q) of the block written back at point `t` is the product's entry at the block's place in the array. -/
theorem flushed_entry (c : Dev nD) (t : Fin cfg0.N) (h15 : t.val % 16 = 15) (r q : Fin 2048) :
    (outsAt0 m c t.val t.isLt).1 (ix2 r q) = product (Xin m c) (Win m c) (((cfg0.win 2).blk t).view.emb (ix2 r q)) := by
  rw [output_eq m c t h15 r q]
  have e0 : (((cfg0.win 2).blk t).view.emb (ix2 r q)) 0 = rowOf t.val r := Fin.ext (by
    show win0_2.index t 0 * 2048 + 1 * r.val = (t.val / 32 % 4) * 2048 + r.val
    rw [(block_index t).2.2.2.2.1]; omega)
  have e1 : (((cfg0.win 2).blk t).view.emb (ix2 r q)) 1 = colOf t.val q := Fin.ext (by
    show win0_2.index t 1 * 2048 + 1 * q.val = (t.val / 16 % 2) * 2048 + q.val
    rw [(block_index t).2.2.2.2.2]; omega)
  unfold product
  rw [e0, e1]

/-- What a write-back writes is the product's block. -/
theorem flushed_eq (c : Dev nD) (t : Fin cfg0.N) (hf : (cfg0.win 2).flush t = true) :
    (dats m 0 c).flushed 2 t = ((cfg0.win 2).blk t).view.read (Elt Ideal) (product (Xin m c) (Win m c)) := by
  have h15 : t.val % 16 = 15 := (flush0_2 t).mp hf
  show (cfg0.win 2).cut (grid0.coords t) ((dats m 0 c).after 2 t) = _
  rw [after0_2]
  funext j
  show (outsAt0 m c t.val t.isLt).1 j = product (Xin m c) (Win m c) (((cfg0.win 2).blk t).view.emb j)
  have hj : j = ix2 (j 0) (j 1) := eq_ix2 (n0 := 2048) (n1 := 2048) j
  rw [hj]
  exact flushed_entry m c t h15 (j 0) (j 1)

/-- An entry of the array is in point `t`'s block iff each coordinate is in the block's range on its axis. -/
theorem mem_block (t : Fin cfg0.N) (i : S8192x4096.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v7).slice (win0_2.rect t)).set ↔ _
  rw [View.set_slice_whole, Rect.mem_set_unit]
  exact Iff.rfl

/-- Every entry lies in a block that is written back. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨tv, htv⟩ : ∃ tv : ℕ, tv = ((i 0).val / 2048 * 2 + (i 1).val / 2048) * 16 + 15 := ⟨_, rfl⟩
  have hlt : tv < cfg0.N := by rw [show cfg0.N = 128 from N_0]; omega
  refine ⟨⟨tv, hlt⟩, (flush0_2 _).mpr (by show tv % 16 = 15; omega), ?_⟩
  rw [mem_block]
  obtain ⟨-, -, -, -, e0, e1⟩ := block_index ⟨tv, hlt⟩
  intro a
  match a with
  | ⟨0, _⟩ =>
    show win0_2.index ⟨tv, hlt⟩ 0 * 2048 ≤ (i 0).val ∧ (i 0).val < win0_2.index ⟨tv, hlt⟩ 0 * 2048 + 2048
    rw [e0]; show tv / 32 % 4 * 2048 ≤ (i 0).val ∧ (i 0).val < tv / 32 % 4 * 2048 + 2048; omega
  | ⟨1, _⟩ =>
    show win0_2.index ⟨tv, hlt⟩ 1 * 2048 ≤ (i 1).val ∧ (i 1).val < win0_2.index ⟨tv, hlt⟩ 1 * 2048 + 2048
    rw [e1]; show tv / 16 % 2 * 2048 ≤ (i 1).val ∧ (i 1).val < tv / 16 % 2 * 2048 + 2048; omega

/-- After the grid the output array is the product. -/
theorem output_array (c : Dev nD) : (dats m 0 c).arrAt 2 cfg0.N = product (Xin m c) (Win m c) :=
  (dats m 0 c).arrAt_eq_of_cover 2 (product (Xin m c) (Win m c)) (flushed_eq m c) covered

end Cert.KernelIdeal.Acc

end
-- ==== Proof.HostSide.lean ====
/-
  The host operations around the region, and the kernel's run with its result named.

  Before the region the host flattens the input [4, 2048, 4096] to [8192, 4096] and builds the combined weight
  `base + c · float(mask)` (the scalar `c` broadcast over the matrix; its final change of float format is the identity over
  the extended reals). After the region it reshapes the [8192, 4096] output back to [4, 2048, 4096]. So the result is that
  reshape of the product of the flattened input with the combined weight.
-/
import proofs.«130440_j54400055771143_2_alg».proof.Proof.Whole
import Idealize.ShloMosaic.Lib.StableHlo.Run

set_option maxRecDepth 16384

noncomputable section

open Idealize.ShloMosaic Idealize.ShloMosaic.TcCoe Idealize.SL.Sem
open Idealize.ShloMosaic.ValueIdx Cert.Spec
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The flattened input, as a function of the input array. -/
def flatInput (x : FVec Ideal S4x2048x4096 .f32) : S8192x4096.Idx → EReal :=
  shapeCast S8192x4096 x shapeCasts_S4x2048x4096_S8192x4096

/-- The combined weight, as a function of the base matrix, the scalar's array and the mask. -/
def combinedWeight (base : FVec Ideal S4096x4096 .f32) (coeff : FVec Ideal S1 .f32) (mask : IVec S4096x4096 32) : S4096x4096.Idx → EReal :=
  truncf (F := Ideal) .bf16 (addf base (mulf (broadcastInDim S4096x4096 ![] bcast_S_S4096x4096 (shapeCast S_ coeff shapeCasts_S1_S_)) (sitofp (F := Ideal) .f32 mask))) bitsLt_bf16_f32

/-- The region finds the flattened input in its first window's array, -/
theorem Xin_eq (c : Dev nD) : Xin m c = flatInput (m ((c.tc : Thread nD τ).loc main_arg0)) := by
  show StableHlo.after hostOps0 (fun b => m (c, b)) (Proc.devRef .tc main_v0) = _
  unfold flatInput
  after_results
  rfl

/-- and the combined weight in its second window's array. -/
theorem Win_eq (c : Dev nD) : Win m c = combinedWeight (m ((c.tc : Thread nD τ).loc main_arg1)) (m ((c.tc : Thread nD τ).loc main_arg2)) (m ((c.tc : Thread nD τ).loc main_arg3)) := by
  show StableHlo.after hostOps0 (fun b => m (c, b)) (Proc.devRef .tc main_v6) = _
  unfold combinedWeight
  after_results
  rfl

/-- The result of the whole program, as a function of the argument arrays. -/
def result (x : FVec Ideal S4x2048x4096 .f32) (base : FVec Ideal S4096x4096 .f32) (coeff : FVec Ideal S1 .f32) (mask : IVec S4096x4096 32) :
    S4x2048x4096.Idx → EReal :=
  shapeCast S4x2048x4096 (product (flatInput x) (combinedWeight base coeff mask)) shapeCasts_S8192x4096_S4x2048x4096

/-- The reshape after the region, applied to the output array the grid left. -/
theorem tail_eq (c : Dev nD) :
    Pipeline.afterTail₀ cfgs (dats m) 0 (V0 m) [hostOps1] c main_v8
      = result (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v8) = _
  after_results
  unfold result
  rw [← Xin_eq m c, ← Win_eq m c]
  exact congrArg (fun v => shapeCast S4x2048x4096 v shapeCasts_S8192x4096_S4x2048x4096)
    ((Pipeline.withArrays_arr spec0 launch0.win.arr_inj c _ _ 2).trans (output_array m c))

/-- The kernel's run: every weakly fair execution terminates with the result array at `result` of the argument
    arrays, and the arguments unchanged. -/
theorem run : θ_run defs (onTc (τ := τ) (main (F := Ideal))) ⟨m, fun _ => 0, ρ⟩ fun r => ∀ c : Dev nD,
      r.2.mem ((c.tc : Thread nD τ).loc main_v8) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  (θ_run defs _ _).mono (fun r h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Acc

end
-- ==== Proof.LibIsRealVec.lean ====
/-
  Arrays of real numbers stay arrays of real numbers under the operations the printed programs use.

  `AllReal x`: every entry of the array `x` (over the extended reals) is a real.  Closed under the
  pointwise sum, difference, product, maximum and minimum; under a contraction (a finite sum of products)
  with or without a real accumulator; under a gather (whatever the indices) and an accumulating scatter of
  real updates; under a broadcast.  The hyperbolic tangent of ANY array is an array of reals, the host's
  as the vector unit's — so after a tanh layer everything is finite again, whatever came before.
-/
import proofs.«130440_j54400055771143_2_alg».proof.Proof.LibIsReal
import Idealize.ShloMosaic.PureOps.Ideal.Laws

open Idealize.ShloMosaic

namespace Cert.Proof.LibIsReal

variable {s : Shape} {φ : FTy}

/-- Every entry of the array is a real. -/
def AllReal (x : FVec Ideal s φ) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.maximumf {x y : FVec Ideal s φ} (hx : AllReal x) (hy : AllReal y) : AllReal (maximumf x y) :=
  fun i => (hx i).max (hy i)

theorem AllReal.minimumf {x y : FVec Ideal s φ} (hx : AllReal x) (hy : AllReal y) : AllReal (minimumf x y) :=
  fun i => (hx i).min (hy i)

/-- The vector unit's tanh of any array. -/
theorem allReal_tanh (x : FVec Ideal s φ) : AllReal (tanh x) := fun i => isReal_tanh (x i)

/-- The host's tanh of any array. -/
theorem allReal_host_tanh (x : FVec Ideal s φ) : AllReal (Host.tanh x) := fun i => isReal_tanh (x i)

theorem AllReal.exp {x : FVec Ideal s φ} (hx : AllReal x) : AllReal (exp x) := fun i => (hx i).exp

theorem AllReal.host_exp {x : FVec Ideal s φ} (hx : AllReal x) : AllReal (Host.exp x) := fun i => (hx i).exp

/-- A host contraction of real arrays. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs : FVec Ideal so .f32) := fun j => by
  rw [Ideal.dotGeneral_apply]
  exact isReal_sum _ _ fun k _ => (hl _).mul (hr _)

/-- The matrix unit's product of real arrays onto a real accumulator. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (FloatOps.matmul d prec lhs rhs acc : FVec Ideal so .f32) := fun j => by
  rw [Ideal.matmul_apply]
  exact (ha j).add (isReal_sum _ _ fun k _ => (hl _).mul (hr _))

/-- A gather reads entries of the operand: real whatever the indices are. -/
theorem AllReal.gather {si t : Shape} {w : Nat} (d : GatherDims s si t) {x : FVec Ideal s φ} (hx : AllReal x)
    (idx : IVec si w) : AllReal (Host.gather d x idx : FVec Ideal t φ) := fun _ => hx _

/-- An accumulating scatter of real updates into a real operand. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) := fun i => by
  show IsReal (Ideal.hostScatterAdd d x idx upd i)
  unfold Ideal.hostScatterAdd
  exact (hx i).add (isReal_sum _ _ fun j _ => hu j)

/-- A broadcast repeats entries. -/
theorem AllReal.broadcastInDim {t : Shape} (dims : Fin s.rank → Fin t.rank) (h : s.BroadcastsInDim t dims)
    {x : FVec Ideal s φ} (hx : AllReal x) : AllReal (broadcastInDim t dims h x : FVec Ideal t φ) := fun _ => hx _

end Cert.Proof.LibIsReal
-- ==== Proof.LibPreDecode.lean ====
/-
  The element facts behind a precondition of the form "every float input finite, every integer input in
  its range".

  The precondition is printed as a conjunction of reductions `all (…)`; once a reduction is opened (the
  library's law for an all-reduce) one is left with a fact about ONE element: for a float, that its
  absolute value compares below the word of +infinity — which says exactly that it is a real number —; for
  an integer, that the conjunction of two signed compares holds — which bounds it, as a signed number and,
  when the lower bound is not negative, as a natural number.
-/
import proofs.«130440_j54400055771143_2_alg».proof.Proof.LibIsReal
import Idealize.ShloMosaic.Lib.Affine
import Idealize.ShloMosaic.Lib.ReduceAll
import proofs.«130440_j54400055771143_2_alg».proof.Proof.LibIsRealVec

open Idealize.ShloMosaic

namespace Cert.Proof.LibPreDecode

open LibIsReal

/-- The word of +infinity. -/
theorem ofBits_inf : Ideal.ofBits .f32 0x7F800000#32 = ⊤ := by simp [Ideal.ofBits, Ideal.ieee]

/-- The one-bit word of a decided proposition is `1` exactly when the proposition holds. -/
theorem ofBool_decide_eq_one (p : Prop) [Decidable p] : BitVec.ofBool (decide p) = 1#1 ↔ p := by
  by_cases h : p <;> simp [h]

/-- `|x| < +inf` holds exactly of the real numbers. -/
theorem abs_lt_inf_iff (x : EReal) :
    Ideal.cmp .olt (max x (-x)) (Ideal.ofBits .f32 0x7F800000#32) = 1#1 ↔ IsReal x := by
  rw [ofBits_inf]
  show BitVec.ofBool (decide (max x (-x) < ⊤)) = 1#1 ↔ IsReal x
  rw [ofBool_decide_eq_one]
  induction x using EReal.rec with
  | bot =>
    rw [EReal.neg_bot, max_eq_right bot_le]
    exact ⟨fun h => absurd h (lt_irrefl _), fun h => absurd rfl h.ne_bot⟩
  | coe r =>
    refine ⟨fun _ => isReal_coe r, fun _ => ?_⟩
    exact max_lt (EReal.coe_lt_top r) (by rw [← EReal.coe_neg]; exact EReal.coe_lt_top _)
  | top =>
    rw [max_eq_left le_top]
    exact ⟨fun h => absurd h (lt_irrefl _), fun h => absurd rfl h.ne_top⟩

/-- The two signed compares of a range check, together, bound the word as a signed number. -/
theorem range_iff (a lo hi : BitVec 32) :
    IntOp.andi (IntOp.cmpi .sge a lo) (IntOp.cmpi .sle a hi) = 1#1 ↔ lo.toInt ≤ a.toInt ∧ a.toInt ≤ hi.toInt :=
  IntOp.andi_eq_one.trans (and_congr IntOp.cmpi_sge IntOp.cmpi_sle)

/-- A word that is not negative as a signed number and at most `N` is at most `N` as a natural number:
    what an indexed access asks of its index. -/
theorem toNat_le_of_range (a : BitVec 32) (N : ℕ) (h0 : 0 ≤ a.toInt) (h1 : a.toInt ≤ (N : ℤ)) : a.toNat ≤ N := by
  rw [BitVec.toInt_eq_toNat_cond] at h0 h1
  split at h0 <;> omega

/-! ## The two kinds of conjunct, for a whole array of any shape -/

/-- The result shape of an all-reduce to a scalar has one index. -/
instance subsingleton_scalar_idx : Subsingleton (⟨0, ![]⟩ : Shape).Idx := ⟨fun _ _ => funext fun d => d.elim0⟩

section Whole

variable {s : Shape} {axes : List (Fin s.rank)}

/-- `all (|x| < +inf)` says every entry of `x` is real. -/
theorem allReal_of_all_finite (x : FVec Ideal s .f32) (inf : FVec Ideal s .f32)
    (hinf : ∀ i, inf i = Ideal.ofBits .f32 0x7F800000#32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (cmpf .olt (Host.absf x) inf) init h hu j = 1#1) : AllReal x := fun i => by
  have hi := Host.reduce_andi_all (cmpf .olt (Host.absf x) inf) init h hu j e i
  have : Ideal.cmp .olt (max (x i) (-(x i))) (Ideal.ofBits .f32 0x7F800000#32) = 1#1 := by
    rw [← hinf i]; exact hi
  exact (abs_lt_inf_iff (x i)).mp this

/-- `all (lo ≤ x ∧ x ≤ hi)` bounds every entry of `x` as a signed number. -/
theorem range_of_all (x lo hi : IVec s 32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (andi (cmpi .sge x lo) (cmpi .sle x hi)) init h hu j = 1#1) (i : s.Idx) :
    (lo i).toInt ≤ (x i).toInt ∧ (x i).toInt ≤ (hi i).toInt :=
  (range_iff (x i) (lo i) (hi i)).mp (Host.reduce_andi_all (andi (cmpi .sge x lo) (cmpi .sle x hi)) init h hu j e i)

end Whole

end Cert.Proof.LibPreDecode
-- ==== Proof.Bridge.lean ====
/-
  The two results are one function of the arguments.

  Entry (b, l, e) of the kernel's result is entry (b·2048 + l, e) of the product — the reshape keeps row-major
  positions — that is `Σ_k x[b, l, k] · (base[k, e] + c · m[k, e])`, with `m` the mask's integers as reals and `c` the
  one entry of the coefficient array. The reference's entry is `Σ_k x[b, l, k] · base[k, e] + c · Σ_k x[b, l, k] · m[k, e]`.
  Where `x`, `base` and `c` are real numbers (the precondition says exactly that; the mask's entries are integers,
  hence real) the two agree: distributivity, and a common factor moved across a finite sum.
-/
import proofs.«130440_j54400055771143_2_alg».proof.Proof.HostSide
import proofs.«130440_j54400055771143_2_alg».proof.Proof.LibPreDecode
import proofs.«130440_j54400055771143_2_alg».proof.Proof.Gen.ReferenceIdeal.Read
import proofs.«130440_j54400055771143_2_alg».proof.Proof.Gen.Pre_finite_inputs

set_option maxRecDepth 16384

noncomputable section

open Idealize.ShloMosaic Idealize.ShloMosaic.TcCoe Idealize.SL.Sem
open Idealize.ShloMosaic.ValueIdx Cert.Spec Cert.Proof.LibIsReal

namespace Cert.Bridge

open Cert.KernelIdeal Cert.KernelIdeal.Gen Cert.KernelIdeal.Acc

/-- The one entry of the coefficient array, read through the reshape to a scalar. -/
def scalar (coeff : FVec Ideal S1 .f32) : EReal := shapeCast S_ coeff shapeCasts_S1_S_ (fun a => a.elim0)

theorem scalar_real (coeff : FVec Ideal S1 .f32) (hc : AllReal coeff) : IsReal (scalar coeff) := by
  unfold scalar shapeCast
  exact hc _

/-- Row `b·2048 + l` of the flattened input. -/
def flatRow (b : Fin 4) (l : Fin 2048) : Fin 8192 := ⟨b.val * 2048 + l.val, by have := b.isLt; have := l.isLt; omega⟩

/-- The flattened input at (b·2048 + l, k) is the input at (b, l, k). -/
theorem flatInput_apply (x : FVec Ideal S4x2048x4096 .f32) (b : Fin 4) (l : Fin 2048) (k : Fin 4096) :
    flatInput x (ix2 (flatRow b l) k) = x (ix3 b l k) := by
  unfold flatInput
  refine shapeCast_apply _ _ _ _ ?_
  rw [Shape.rowMajor_val_three, Shape.rowMajor_val_two]
  rfl

/-- The combined weight at (k, e). -/
theorem combinedWeight_apply (base : FVec Ideal S4096x4096 .f32) (coeff : FVec Ideal S1 .f32) (mask : IVec S4096x4096 32)
    (k e : Fin 4096) :
    combinedWeight base coeff mask (ix2 k e) = base (ix2 k e) + scalar coeff * (((mask (ix2 k e)).toInt : ℝ) : EReal) := by
  unfold combinedWeight scalar
  show base (ix2 k e) + broadcastInDim S4096x4096 ![] bcast_S_S4096x4096 (shapeCast S_ coeff shapeCasts_S1_S_) (ix2 k e)
      * (((mask (ix2 k e)).toInt : ℝ) : EReal) = _
  rw [broadcastInDim_apply _ bcast_S_S4096x4096 _ (ix2 k e) (fun a => a.elim0) (fun a => a.elim0)]

/-- Entry (b, l, e) of the kernel's result. -/
theorem result_apply (x : FVec Ideal S4x2048x4096 .f32) (base : FVec Ideal S4096x4096 .f32) (coeff : FVec Ideal S1 .f32)
    (mask : IVec S4096x4096 32) (b : Fin 4) (l : Fin 2048) (e : Fin 4096) :
    result x base coeff mask (ix3 b l e)
      = ∑ k : Fin 4096, x (ix3 b l k) * (base (ix2 k e) + scalar coeff * (((mask (ix2 k e)).toInt : ℝ) : EReal)) := by
  unfold result
  rw [shapeCast_apply _ shapeCasts_S8192x4096_S4x2048x4096 (ix3 b l e) (ix2 (flatRow b l) e)
    (by rw [Shape.rowMajor_val_three, Shape.rowMajor_val_two]; rfl)]
  unfold product
  refine Finset.sum_congr rfl fun k _ => ?_
  show flatInput x (ix2 (flatRow b l) k) * combinedWeight base coeff mask (ix2 k e) = _
  rw [flatInput_apply, combinedWeight_apply]

open Cert.ReferenceIdeal.Read in
/-- Entry (b, l, e) of the reference's result. -/
theorem reference_apply (x : FVec Ideal S4x2048x4096 .f32) (base : FVec Ideal S4096x4096 .f32) (coeff : FVec Ideal S1 .f32)
    (mask : IVec S4096x4096 32) (b : Fin 4) (l : Fin 2048) (e : Fin 4096) :
    val_main_v6 (F := Ideal) x base coeff mask (ix3 b l e)
      = ∑ k : Fin 4096, x (ix3 b l k) * base (ix2 k e)
        + scalar coeff * ∑ k : Fin 4096, x (ix3 b l k) * (((mask (ix2 k e)).toInt : ℝ) : EReal) := by
  have el : ∀ k : Fin 4096, lidx_main_v2 (ix3 b l e) k = ix3 b l k := fun k =>
    funext fun a => Fin.ext (by match a with | ⟨0, _⟩ => rfl | ⟨1, _⟩ => rfl | ⟨2, _⟩ => rfl)
  have er : ∀ k : Fin 4096, ridx_main_v2 (ix3 b l e) k = ix2 k e := fun k =>
    funext fun a => Fin.ext (by match a with | ⟨0, _⟩ => rfl | ⟨1, _⟩ => rfl)
  rw [val_main_v6_apply, val_main_v5_apply, val_main_v2_apply, val_main_v3_apply, val_main_v4_apply]
  show (∑ k : Fin 4096, x (lidx_main_v2 (ix3 b l e) k) * base (ridx_main_v2 (ix3 b l e) k))
      + scalar coeff * ∑ k : Fin 4096, x (lidx_main_v2 (ix3 b l e) k) * (((mask (ridx_main_v2 (ix3 b l e) k)).toInt : ℝ) : EReal) = _
  simp only [el, er]

open Cert.ReferenceIdeal.Read in
/-- On real inputs the kernel's result is the reference's. -/
theorem result_eq_reference (x : FVec Ideal S4x2048x4096 .f32) (base : FVec Ideal S4096x4096 .f32) (coeff : FVec Ideal S1 .f32)
    (mask : IVec S4096x4096 32) (hx : AllReal x) (hb : AllReal base) (hc : AllReal coeff) :
    result x base coeff mask = val_main_v6 (F := Ideal) x base coeff mask := by
  funext i
  obtain ⟨b, l, e, rfl⟩ : ∃ (b : Fin 4) (l : Fin 2048) (e : Fin 4096), i = ix3 b l e := ⟨i 0, i 1, i 2, eq_ix3 i⟩
  rw [result_apply, reference_apply]
  exact dot_combined (fun k => x (ix3 b l k)) (fun k => base (ix2 k e)) (fun k => (((mask (ix2 k e)).toInt : ℝ) : EReal))
    (scalar coeff) (fun k => hx _) (fun k => hb _) (fun k => isReal_coe _) (scalar_real coeff hc)

open Cert.Proof.LibPreDecode in
/-- The precondition, opened: every entry of the three float inputs is a real number. -/
theorem reals_of_pre (x : FVec Ideal S4x2048x4096 .f32) (base : FVec Ideal S4096x4096 .f32) (coeff : FVec Ideal S1 .f32)
    (mask : IVec S4096x4096 32) (h : Cert.Pre_finite_inputs.fn (F := Ideal) x base coeff mask = fun _ => 1#1) :
    AllReal x ∧ AllReal base ∧ AllReal coeff := by
  have h0 := congrFun h (fun a => a.elim0)
  dsimp only [Cert.Pre_finite_inputs.fn] at h0
  obtain ⟨h01, h2⟩ := IntOp.andi_eq_one.mp h0
  obtain ⟨hx, hb⟩ := IntOp.andi_eq_one.mp h01
  exact ⟨allReal_of_all_finite x _ (fun _ => rfl) _ _ _ _ hx, allReal_of_all_finite base _ (fun _ => rfl) _ _ _ _ hb,
    allReal_of_all_finite coeff _ (fun _ => rfl) _ _ _ _ h2⟩

end Cert.Bridge

end
-- ==== Proof.lean ====
/-
  `out = x @ base + c · (x @ mask)` against one blocked matrix product with the combined weight.

  The reference contracts the input x[4, 2048, 4096] twice over its last axis — with the base matrix and with the
  0/1 mask read as numbers — and returns `x·base + c·(x·mask)`, `c` the one entry of the coefficient array. The kernel
  first forms the combined weight `w = base + c·mask` on the host, flattens x to [8192, 4096], and computes `x·w` on
  a 4 × 2 × 16 grid: the point (a, b, j) adds the product of the 2048 × 256 block (a, j) of x with the 256 × 2048
  block (j, b) of w to a running 2048 × 2048 block kept in scratch memory (reset at j = 0), and at j = 15 copies
  it to the output block (a, b); the result is reshaped back to [4, 2048, 4096].

  Over the extended reals (float formats exact, format changes the identity):
    · after the point numbered n = (a·2 + b)·16 + j the running block holds the contraction over the blocks 0 … j
      (induction on n), so each output block ends at the whole contraction and the eight blocks tile x·w;
    · entry (b, l, e) of the kernel's result is Σ_k x[b,l,k]·(base[k,e] + c·m[k,e]), the reference's is
      Σ_k x[b,l,k]·base[k,e] + c·Σ_k x[b,l,k]·m[k,e]; these agree because the precondition makes x, base and c real
      numbers and the mask's entries are integers — distributivity and moving c across the sum need that.
  The idealized kernel is the kernel's own text read over the extended reals: nothing was rewritten.
-/
import proofs.«130440_j54400055771143_2_alg».proof.Defs
import proofs.«130440_j54400055771143_2_alg».proof.Proof.Gen.Kernel
import proofs.«130440_j54400055771143_2_alg».proof.Proof.Gen.Kernel.Skeleton
import proofs.«130440_j54400055771143_2_alg».proof.Proof.Gen.Kernel.Launch
import proofs.«130440_j54400055771143_2_alg».proof.Proof.Gen.Kernel.Points
import proofs.«130440_j54400055771143_2_alg».proof.Proof.Gen.Kernel.Frame
import proofs.«130440_j54400055771143_2_alg».proof.Proof.Gen.KernelIdeal
import proofs.«130440_j54400055771143_2_alg».proof.Proof.Gen.KernelIdeal.Skeleton
import proofs.«130440_j54400055771143_2_alg».proof.Proof.Gen.KernelIdeal.Launch
import proofs.«130440_j54400055771143_2_alg».proof.Proof.Gen.KernelIdeal.Points
import proofs.«130440_j54400055771143_2_alg».proof.Proof.Gen.KernelIdeal.Frame
import proofs.«130440_j54400055771143_2_alg».proof.Proof.Gen.ReferenceIdeal
import proofs.«130440_j54400055771143_2_alg».proof.Proof.Gen.ReferenceIdeal.Run
import proofs.«130440_j54400055771143_2_alg».proof.Proof.Gen.ReferenceIdeal.Read
import proofs.«130440_j54400055771143_2_alg».proof.Proof.Gen.Pre_finite_inputs
import proofs.«130440_j54400055771143_2_alg».proof.Proof.Bridge
import Idealize.ShloMosaic.Adequacy
import Idealize.ShloMosaic.Init

noncomputable section

namespace Cert.Proof

open Idealize.ShloMosaic Idealize.SL.Sem

/-- The kernel as printed runs, nothing faults, its arguments end unchanged. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories agreeing on the arguments both programs end at the same array: the kernel at the reshaped
    product with the combined weight, the reference at its two contractions combined, equal on real inputs. -/
theorem algebraic : Cert.algebraic_KernelIdeal_ReferenceIdeal := by
  intro m ρ m' ρ' hpre hagree
  refine ⟨fun c => Cert.KernelIdeal.Acc.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hb, hc⟩ := Cert.Bridge.reals_of_pre _ _ _ _ (hpre c)
  rw [Cert.ReferenceIdeal.Read.val_main_v6_eq, (hagree c).1, (hagree c).2.1, (hagree c).2.2.1, (hagree c).2.2.2]
  exact (Cert.Bridge.result_eq_reference _ _ _ _ hx hb hc).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
